-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S50000x1 : Shape := ⟨2, ![50000, 1]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S50000x1 : S_.BroadcastsInDim S50000x1 (![] : Fin 0 → Fin S50000x1.rank)
  reducesTo_S50000x1_S_d0_1 : S50000x1.ReducesTo [0, 1] S_

variable [Facts]

def fn {F : FTy → Type} [FloatOps F] (main_arg0 : FVec F S100000x64 .f32) (main_arg1 : FVec F S50000x64 .f32) (main_arg2 : FVec F S50000x1 .f32) (main_arg3 : IVec S2000000 32) (main_arg4 : IVec S2000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S50000x1 : Shape := ⟨2, ![50000, 1]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S50000 : Shape := ⟨1, ![50000]⟩
abbrev S1 : Shape := ⟨1, ![1]⟩
abbrev S1x1 : Shape := ⟨2, ![1, 1]⟩
abbrev S5000x64 : Shape := ⟨2, ![5000, 64]⟩
abbrev S5000x1 : Shape := ⟨2, ![5000, 1]⟩
abbrev S100000 : Shape := ⟨1, ![100000]⟩
abbrev S100000x1 : Shape := ⟨2, ![100000, 1]⟩

abbrev nBuf : Space → Nat
  | .hbm => 71
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S50000x1, .f32⟩
  | .hbm, ⟨3, _⟩ => ⟨S2000000, .i32⟩
  | .hbm, ⟨4, _⟩ => ⟨S2000000, .i32⟩
  | .hbm, ⟨5, _⟩ => ⟨S_, .f32⟩
  | .hbm, ⟨6, _⟩ => ⟨S2000000, .f32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .f32⟩
  | .hbm, ⟨16, _⟩ => ⟨S_, .f32⟩
  | .hbm, ⟨17, _⟩ => ⟨S50000x64, .f32⟩
  | .hbm, ⟨18, _⟩ => ⟨S2000000x1, .i32⟩
  | .hbm, ⟨19, _⟩ => ⟨S50000x64, .f32⟩
  | .hbm, ⟨20, _⟩ => ⟨S_, .f32⟩
  | .hbm, ⟨21, _⟩ => ⟨S50000, .f32⟩
  | .hbm, ⟨22, _⟩ => ⟨S2000000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S1x1, .f32⟩
  | .hbm, ⟨34, _⟩ => ⟨S50000x1, .f32⟩
  | .hbm, ⟨35, _⟩ => ⟨S50000x1, .f32⟩
  | .hbm, ⟨36, _⟩ => ⟨S50000x1, .f32⟩
  | .hbm, ⟨37, _⟩ => ⟨S_, .f32⟩
  | .hbm, ⟨38, _⟩ => ⟨S1, .f32⟩
  | .hbm, ⟨39, _⟩ => ⟨S1x1, .f32⟩
  | .hbm, ⟨40, _⟩ => ⟨S50000x1, .f32⟩
  | .hbm, ⟨41, _⟩ => ⟨S50000x1, .f32⟩
  | .hbm, ⟨42, _⟩ => ⟨S50000x1, .f32⟩
  | .hbm, ⟨43, _⟩ => ⟨S50000x1, .f32⟩
  | .hbm, ⟨44, _⟩ => ⟨S50000x64, .f32⟩
  | .hbm, ⟨45, _⟩ => ⟨S_, .i32⟩
  | .hbm, ⟨46, _⟩ => ⟨S2000000, .i32⟩
  | .hbm, ⟨47, _⟩ => ⟨S2000000, .i1⟩
  | .hbm, ⟨48, _⟩ => ⟨S_, .i32⟩
  | .hbm, ⟨49, _⟩ => ⟨S2000000, .i32⟩
  | .hbm, ⟨50, _⟩ => ⟨S2000000, .i32⟩
  | .hbm, ⟨51, _⟩ => ⟨S2000000, .i32⟩
  | .hbm, ⟨52, _⟩ => ⟨S2000000x1, .i32⟩
  | .hbm, ⟨53, _⟩ => ⟨S2000000x64, .f32⟩
  | .hbm, ⟨54, _⟩ => ⟨S_, .f32⟩
  | .hbm, ⟨55, _⟩ => ⟨S100000x64, .f32⟩
  | .hbm, ⟨56, _⟩ => ⟨S2000000x1, .i32⟩
  | .hbm, ⟨57, _⟩ => ⟨S100000x64, .f32⟩
  | .hbm, ⟨58, _⟩ => ⟨S_, .f32⟩
  | .hbm, ⟨59, _⟩ => ⟨S100000, .f32⟩
  | .hbm, ⟨60, _⟩ => ⟨S2000000x1, .i32⟩
  | .hbm, ⟨61, _⟩ => ⟨S100000, .f32⟩
  | .hbm, ⟨62, _⟩ => ⟨S_, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_call1_v0 : Ref sig .tc := ⟨.hbm, 63, rfl⟩
abbrev main_call1_v1 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S_S50000 : S_.BroadcastsInDim S50000 (![] : Fin 0 → Fin S50000.rank)
  reducesTo_S50000x1_S1_d0 : S50000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S50000_S50000x1_0 : S50000.BroadcastsInDim S50000x1 (![0] : Fin 1 → Fin S50000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf

abbrev win0_0 : Pipeline.Window sig grid0 :=
  Pipeline.Window.ofSpec (Memref.whole main_v10) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S50000x1 : Shape := ⟨2, ![50000, 1]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S50000 : Shape := ⟨1, ![50000]⟩
abbrev S1 : Shape := ⟨1, ![1]⟩
abbrev S1x1 : Shape := ⟨2, ![1, 1]⟩
abbrev S100000 : Shape := ⟨1, ![100000]⟩
abbrev S100000x1 : Shape := ⟨2, ![100000, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S50000x1, .f32⟩
  | .hbm, ⟨3, _⟩ => ⟨S2000000, .i32⟩
  | .hbm, ⟨4, _⟩ => ⟨S2000000, .i32⟩
  | .hbm, ⟨5, _⟩ => ⟨S_, .f32⟩
  | .hbm, ⟨6, _⟩ => ⟨S2000000, .f32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .f32⟩
  | .hbm, ⟨16, _⟩ => ⟨S_, .f32⟩
  | .hbm, ⟨17, _⟩ => ⟨S50000x64, .f32⟩
  | .hbm, ⟨18, _⟩ => ⟨S2000000x1, .i32⟩
  | .hbm, ⟨19, _⟩ => ⟨S50000x64, .f32⟩
  | .hbm, ⟨20, _⟩ => ⟨S_, .f32⟩
  | .hbm, ⟨21, _⟩ => ⟨S50000, .f32⟩
  | .hbm, ⟨22, _⟩ => ⟨S2000000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x64, .f32⟩
  | .hbm, ⟨29, _⟩ => ⟨S_, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1x1, .f32⟩
  | .hbm, ⟨39, _⟩ => ⟨S50000x1, .f32⟩
  | .hbm, ⟨40, _⟩ => ⟨S50000x1, .f32⟩
  | .hbm, ⟨41, _⟩ => ⟨S50000x1, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S50000x1, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S2000000, .i32⟩
  | .hbm, ⟨54, _⟩ => ⟨S2000000, .i1⟩
  | .hbm, ⟨55, _⟩ => ⟨S_, .i32⟩
  | .hbm, ⟨56, _⟩ => ⟨S2000000, .i32⟩
  | .hbm, ⟨57, _⟩ => ⟨S2000000, .i32⟩
  | .hbm, ⟨58, _⟩ => ⟨S2000000, .i32⟩
  | .hbm, ⟨59, _⟩ => ⟨S2000000x1, .i32⟩
  | .hbm, ⟨60, _⟩ => ⟨S2000000x64, .f32⟩
  | .hbm, ⟨61, _⟩ => ⟨S_, .f32⟩
  | .hbm, ⟨62, _⟩ => ⟨S100000x64, .f32⟩
  | .hbm, ⟨63, _⟩ => ⟨S2000000x1, .i32⟩
  | .hbm, ⟨64, _⟩ => ⟨S100000x64, .f32⟩
  | .hbm, ⟨65, _⟩ => ⟨S_, .f32⟩
  | .hbm, ⟨66, _⟩ => ⟨S100000, .f32⟩
  | .hbm, ⟨67, _⟩ => ⟨S2000000x1, .i32⟩
  | .hbm, ⟨68, _⟩ => ⟨S100000, .f32⟩
  | .hbm, ⟨69, _⟩ => ⟨S_, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_call1_v0 : Ref sig .tc := ⟨.hbm, 70, rfl⟩
abbrev main_call1_v1 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S_S50000 : S_.BroadcastsInDim S50000 (![] : Fin 0 → Fin S50000.rank)
  reducesTo_S50000x1_S1_d0 : S50000x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S50000x1_S50000x64_0_1 : S50000x1.BroadcastsInDim S50000x64 (![0, 1] : Fin 2 → Fin S50000x64.rank)
  bcast_S50000_S50000x1_0 : S50000.BroadcastsInDim S50000x1 (![0] : Fin 1 → Fin S50000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf

class Facts : Prop extends Facts₀ where

variable [Facts]
-- ==== Proof.KernelRun.lean ====
/-
  The idealized kernel program's run, with its result buffer named.

  @main of the kernel program is eight segments: three stretches of host operations (the first gather and
  segment sums, the degree clip, the node softmax and the ratio), the item kernel's region, three more
  stretches (the second gather and segment sums, the clip, the reciprocal degree) and the user kernel's
  region. The buffer contents at each segment boundary are a fold from the launch memory; the last one,
  `W8`, is what every unscoped buffer holds when @main returns. The launch theorem for a program of host
  stretches and kernel regions reads the last thread state against the final memory; stated here with ALL of
  that reading kept — every unscoped buffer ends at `W8` — so that the result buffer's contents, and not only
  the arguments', can be read afterwards.
-/
import proofs.«137836_j30983894073822_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every unscoped buffer of every core ends
    at the last segment boundary's contents `W8`: the launch over @main's eight segments, the last thread state read
    whole against the final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The result buffer and the five arguments after the run: the result at the last boundary's contents, each
    argument as launched. -/
theorem run_result : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v46 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)
    (run_boundary m ρ)

end Cert.KernelIdeal.Whole

end
-- ==== Proof.ItemBlocks.lean ====
/-
  The item kernel's region as one whole-array function.

  The item kernel runs over ten grid points; point `t` works on rows `5000·t … 5000·t + 4999` of the
  50000 item rows. It loads the block of aggregated user features `r`, the block of pretrained features
  `p` and the 5000×1 block of per-row ratios `q`, and stores, at row `a` and feature `b` of the block,
  `(r + ½·tanh p)(a, b) · q(a, 0)`: every operation is pointwise except the stretch of the ratio column
  along the feature axis. All four windows move with the same block index `(t, 0)`, so entry `(a, b)` of
  point `t`'s blocks is entry `(5000·t + a, b)` of the arrays (and `(5000·t + a, 0)` of the ratio column), and
  what a point writes back is its block of ONE function of the three arrays, `itemStage`. The ten blocks tile
  the 50000 rows (row `i` lies in block `i / 5000`), so after the region the output array is `itemStage` of
  the arrays the region found.
-/
import proofs.«137836_j30983894073822_1_alg».proof.Proof.Gen.KernelIdeal.Frame
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The origin of a rank-2 rectangle, as a constant function. -/
theorem origin2 : (![0, 0] : Fin 2 → Nat) = fun _ => 0 := funext fun a => by fin_cases a <;> rfl

/-- The item stage: at item row `i 0` and feature `i 1`, the aggregated feature plus half the hyperbolic tangent of
    the pretrained feature, times the row's ratio. -/
def itemStage (r p : S50000x64.Idx → Elt F .f32) (q : S50000x1.Idx → Elt F .f32) : S50000x64.Idx → Elt F .f32 :=
  fun i => FloatOps.mulf (FloatOps.addf (r i) (FloatOps.mulf (Scalar.ofBits .f32 0x3F000000#32) (FloatOps.tanh (p i))))
    (q (ix2 (i 0) (0 : Fin 1)))

/-- The item stage read at an index. -/
theorem itemStage_apply (r p : S50000x64.Idx → Elt F .f32) (q : S50000x1.Idx → Elt F .f32) (i : S50000x64.Idx) :
    itemStage r p q i
      = FloatOps.mulf (FloatOps.addf (r i) (FloatOps.mulf (Scalar.ofBits .f32 0x3F000000#32) (FloatOps.tanh (p i))))
          (q (ix2 (i 0) (0 : Fin 1))) := rfl

/-- The body's stored value at an entry of the block: the pointwise operations at that entry, the ratio column read
    at the entry's row. -/
theorem item_payload (x0 x1 : Vec F S5000x64 .f32) (x2 : Vec F S5000x1 .f32) (j : S5000x64.Idx) :
    k0_pay1 x0 x1 x2 j
      = FloatOps.mulf (FloatOps.addf (x0 j) (FloatOps.mulf (Scalar.ofBits .f32 0x3F000000#32) (FloatOps.tanh (x1 j))))
          (x2 (ix2 (j 0) (0 : Fin 1))) := by
  unfold k0_pay1
  show FloatOps.mulf (FloatOps.addf (shapeCast S5000x64 x0 shapeCasts_S5000x64_S5000x64 j)
      (FloatOps.mulf (Scalar.ofBits .f32 0x3F000000#32) (FloatOps.tanh (x1 j))))
      (broadcastTo S5000x64 (shapeCast S5000x1 x2 shapeCasts_S5000x1_S5000x1) broadcasts_S5000x1_S5000x64 j) = _
  rw [shapeCast_self, shapeCast_self,
    broadcastTo_apply x2 broadcasts_S5000x1_S5000x64 j (ix2 (j 0) (0 : Fin 1)) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])]

/-- The printed index maps over the ten grid points: every window's block index is the output window's, and the
    output's is `(t, 0)` with `t ≤ 9`. -/
theorem item_index_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = 0
    ∧ win0_3.index t (0 : Fin 2) ≤ 9 ∧ win0_3.index t (1 : Fin 2) = 0 :=
  (by decide +kernel : ∀ t : Fin grid0.N, _)

/-- Every block of rows is some point's. -/
theorem item_index_onto : ∀ q0 : Fin 10, ∃ t : Fin cfg0.N, win0_3.index t = ![q0.val, 0] :=
  (by decide +kernel : ∀ q0 : Fin 10, ∃ t : Fin grid0.N, win0_3.index t = ![q0.val, 0])

variable (V : (c : Dev nD) → (b : Ref sig .tc) → Buf (Elt F) ((c : Thread nD τ).loc b))

/-- What point `t` writes back is its block of `itemStage` of the arrays the region found. -/
theorem item_flushed (c : Dev nD) (t : Fin cfg0.N) :
    (dat0 V c).flushed 3 t
      = ((cfg0.win 3).blk t).view.read (Elt F) (itemStage (V c main_v10) (V c main_arg1) (V c main_v27)) := by
  show (cfg0.win 3).cut (grid0.coords t) ((dat0 V c).after 3 t) = _
  rw [after0_3]
  unfold out0_3
  rw [View.canon_unit_zero origin2]
  simp only [View.ld_unit_zero (S := S5000x64) origin2, View.ld_unit_zero (S := S5000x1) origin2]
  obtain ⟨e0, e1, e2, e3, e4, e5, e6, e7⟩ := item_index_facts t
  funext j
  refine (item_payload (iblk0 V c 0 t) (iblk0 V c 1 t) (iblk0 V c 2 t) j).trans ?_
  show FloatOps.mulf (FloatOps.addf (V c main_v10 (((cfg0.win 0).blk t).view.emb j))
        (FloatOps.mulf (Scalar.ofBits .f32 0x3F000000#32) (FloatOps.tanh (V c main_arg1 (((cfg0.win 1).blk t).view.emb j)))))
      (V c main_v27 (((cfg0.win 2).blk t).view.emb (ix2 (j 0) (0 : Fin 1))))
    = itemStage (V c main_v10) (V c main_arg1) (V c main_v27) (((cfg0.win 3).blk t).view.emb j)
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 64 + 1 * (j 1).val = win0_3.index t (1 : Fin 2) * 64 + 1 * (j 1).val; omega
  have h2 : ((cfg0.win 2).blk t).view.emb (ix2 (j 0) (0 : Fin 1))
      = ix2 ((((cfg0.win 3).blk t).view.emb j) 0) (0 : Fin 1) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  rw [h0, h1, h2]
  rfl

/-- An item index is in point `t`'s block iff each coordinate is in the block's range on its axis. -/
theorem item_mem_block (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v28).slice (win0_3.rect t)).set ↔ _
  rw [View.set_slice_whole, Rect.mem_set_unit]
  exact Iff.rfl

/-- The ten blocks cover every item index: row `i` lies in block `i / 5000`. -/
theorem item_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := item_index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [item_mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the item region: `itemStage` of the three arrays the region found. -/
theorem item_final (c : Dev nD) :
    (dat0 V c).arrAt 3 cfg0.N = itemStage (V c main_v10) (V c main_arg1) (V c main_v27) :=
  (dat0 V c).arrAt_eq_of_cover 3 _ (fun t _ => item_flushed V c t) item_cover

end Cert.KernelIdeal.Whole

end
-- ==== Proof.UserBlocks.lean ====
/-
  The user kernel's region as one whole-array function.

  The user kernel runs over twenty grid points; point `t` works on rows `5000·t … 5000·t + 4999` of the
  100000 user rows. It loads the block of back-aggregated features `s` and the 5000×1 block of reciprocal
  degrees `d`, and stores `s(a, b) · d(a, 0)` at row `a` and feature `b` of the block. The three windows move
  with the same block index `(t, 0)`, so what a point writes back is its block of ONE function of the two
  arrays, `userStage`; the twenty blocks tile the 100000 rows (row `i` lies in block `i / 5000`), so after the
  region the output array is `userStage` of the arrays the region found.
-/
import proofs.«137836_j30983894073822_1_alg».proof.Proof.Gen.KernelIdeal.Frame
import proofs.«137836_j30983894073822_1_alg».proof.Proof.ItemBlocks
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The user stage: at user row `i 0` and feature `i 1`, the back-aggregated feature times the row's reciprocal
    degree. -/
def userStage (s : S100000x64.Idx → Elt F .f32) (d : S100000x1.Idx → Elt F .f32) : S100000x64.Idx → Elt F .f32 :=
  fun i => FloatOps.mulf (s i) (d (ix2 (i 0) (0 : Fin 1)))

/-- The user stage read at an index. -/
theorem userStage_apply (s : S100000x64.Idx → Elt F .f32) (d : S100000x1.Idx → Elt F .f32) (i : S100000x64.Idx) :
    userStage s d i = FloatOps.mulf (s i) (d (ix2 (i 0) (0 : Fin 1))) := rfl

/-- The body's stored value at an entry of the block: the product of the feature at that entry and the reciprocal
    degree read at the entry's row. -/
theorem user_payload (x0 : Vec F S5000x64 .f32) (x1 : Vec F S5000x1 .f32) (j : S5000x64.Idx) :
    k1_pay1 x0 x1 j = FloatOps.mulf (x0 j) (x1 (ix2 (j 0) (0 : Fin 1))) := by
  unfold k1_pay1
  show FloatOps.mulf (shapeCast S5000x64 x0 shapeCasts_S5000x64_S5000x64 j)
      (broadcastTo S5000x64 (shapeCast S5000x1 x1 shapeCasts_S5000x1_S5000x1) broadcasts_S5000x1_S5000x64 j) = _
  rw [shapeCast_self, shapeCast_self,
    broadcastTo_apply x1 broadcasts_S5000x1_S5000x64 j (ix2 (j 0) (0 : Fin 1)) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])]

/-- The printed index maps over the twenty grid points: every window's block index is the output window's, and the
    output's is `(t, 0)` with `t ≤ 19`. -/
theorem user_index_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) ≤ 19 ∧ win1_2.index t (1 : Fin 2) = 0 :=
  (by decide +kernel : ∀ t : Fin grid1.N, _)

/-- Every block of rows is some point's. -/
theorem user_index_onto : ∀ q0 : Fin 20, ∃ t : Fin cfg1.N, win1_2.index t = ![q0.val, 0] :=
  (by decide +kernel : ∀ q0 : Fin 20, ∃ t : Fin grid1.N, win1_2.index t = ![q0.val, 0])

variable (V : (c : Dev nD) → (b : Ref sig .tc) → Buf (Elt F) ((c : Thread nD τ).loc b))

/-- What point `t` writes back is its block of `userStage` of the arrays the region found. -/
theorem user_flushed (c : Dev nD) (t : Fin cfg1.N) :
    (dat1 V c).flushed 2 t
      = ((cfg1.win 2).blk t).view.read (Elt F) (userStage (V c main_v38) (V c main_v45)) := by
  show (cfg1.win 2).cut (grid1.coords t) ((dat1 V c).after 2 t) = _
  rw [after1_2]
  unfold out1_2
  rw [View.canon_unit_zero origin2]
  simp only [View.ld_unit_zero (S := S5000x64) origin2, View.ld_unit_zero (S := S5000x1) origin2]
  obtain ⟨e0, e1, e2, e3, e4, e5⟩ := user_index_facts t
  funext j
  refine (user_payload (iblk1 V c 0 t) (iblk1 V c 1 t) j).trans ?_
  show FloatOps.mulf (V c main_v38 (((cfg1.win 0).blk t).view.emb j))
      (V c main_v45 (((cfg1.win 1).blk t).view.emb (ix2 (j 0) (0 : Fin 1))))
    = userStage (V c main_v38) (V c main_v45) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (j 0) (0 : Fin 1))
      = ix2 ((((cfg1.win 2).blk t).view.emb j) 0) (0 : Fin 1) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  rw [h0, h1]
  rfl

/-- A user index is in point `t`'s block iff each coordinate is in the block's range on its axis. -/
theorem user_mem_block (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v46).slice (win1_2.rect t)).set ↔ _
  rw [View.set_slice_whole, Rect.mem_set_unit]
  exact Iff.rfl

/-- The twenty blocks cover every user index: row `i` lies in block `i / 5000`. -/
theorem user_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := user_index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [user_mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE OUTPUT ARRAY after the user region: `userStage` of the two arrays the region found. -/
theorem user_final (c : Dev nD) :
    (dat1 V c).arrAt 2 cfg1.N = userStage (V c main_v38) (V c main_v45) :=
  (dat1 V c).arrAt_eq_of_cover 2 _ (fun t _ => user_flushed V c t) user_cover

end Cert.KernelIdeal.Whole

end
-- ==== Proof.KernelValue.lean ====
/-
  What the kernel program's result buffer holds when @main returns, as a term of the five arguments.

  Reading backwards from the last segment boundary:
  * the result is the user region's output array: `userStage` of the back-aggregated features and the
    reciprocal degrees as the user region finds them;
  * those two arrays are written by the host stretch between the regions: the reciprocal degrees are
    `(max 1 (count of each user among the sources))^(-1)` as a column, the back-aggregated features the segment sum
    over sources of the item region's output gathered at the destinations;
  * the item region's output is `itemStage` of the three arrays the item region finds, which the first host stretch
    wrote: the segment sum over destinations of the user features gathered at the sources, the pretrained features
    (an argument, untouched), and the column `softmax(edge weight) / max 1 (in-degree)`.
  Each host stage is spelled by the same operations in the reference program, so each buffer is stated directly as
  the reference's stage of the same arguments (the generated stage functions `val_main_v…`); the equalities are
  the fold over the host operations computed out.
-/
import proofs.«137836_j30983894073822_1_alg».proof.Proof.Gen.KernelIdeal.Frame
import proofs.«137836_j30983894073822_1_alg».proof.Proof.Gen.ReferenceIdeal.Read
import proofs.«137836_j30983894073822_1_alg».proof.Proof.ItemBlocks
import proofs.«137836_j30983894073822_1_alg».proof.Proof.UserBlocks
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem Idealize.ShloMosaic.StableHlo
open Cert.ReferenceIdeal.Read

variable {F : FTy → Type} [FloatOps F]
variable (m : (ℓ : Loc nD τ sig) → Buf (Elt F) ℓ) (ρ : Dev nD → PrngReg)

/-- The five argument arrays as launched, on core `c`: user features, pretrained item features, edge weights, source
    indices, destination indices. -/
abbrev users (c : Dev nD) := m ((c : Thread nD τ).loc main_arg0)
abbrev pretrained (c : Dev nD) := m ((c : Thread nD τ).loc main_arg1)
abbrev weights (c : Dev nD) := m ((c : Thread nD τ).loc main_arg2)
abbrev sources (c : Dev nD) := m ((c : Thread nD τ).loc main_arg3)
abbrev dests (c : Dev nD) := m ((c : Thread nD τ).loc main_arg4)

/-! ## At the item region's entry -/

set_option maxHeartbeats 4000000 in
/-- The pretrained features are as launched. -/
theorem entry_pretrained (c : Dev nD) : W3 m ρ c (Proc.devRef .tc main_arg1) = pretrained m c := by
  dsimp only [W3, W2, W1, W0, hostOps0, hostOps0_1, hostOps0_2]
  after_results_simp

set_option maxHeartbeats 4000000 in
/-- The source indices are as launched. -/
theorem entry_sources (c : Dev nD) : W3 m ρ c (Proc.devRef .tc main_arg3) = sources m c := by
  dsimp only [W3, W2, W1, W0, hostOps0, hostOps0_1, hostOps0_2]
  after_results_simp

set_option maxHeartbeats 4000000 in
/-- The destination indices are as launched. -/
theorem entry_dests (c : Dev nD) : W3 m ρ c (Proc.devRef .tc main_arg4) = dests m c := by
  dsimp only [W3, W2, W1, W0, hostOps0, hostOps0_1, hostOps0_2]
  after_results_simp

set_option maxHeartbeats 4000000 in
/-- The vector of ones, one per edge. -/
theorem entry_ones (c : Dev nD) : W3 m ρ c (Proc.devRef .tc main_v0) = val_main_v0 (F := F) := by
  dsimp only [W3, W2, W1, W0, hostOps0, hostOps0_1, hostOps0_2]
  after_results_simp
  rfl

set_option maxHeartbeats 4000000 in
/-- The aggregated user features per item: the segment sum over destinations of the user rows gathered at the sources. -/
theorem entry_aggregated (c : Dev nD) : W3 m ρ c (Proc.devRef .tc main_v10)
    = val_main_v10 (F := F) (users m c) (sources m c) (dests m c) := by
  dsimp only [W3, W2, W1, W0, hostOps0, hostOps0_1, hostOps0_2]
  after_results_simp
  rfl

set_option maxHeartbeats 4000000 in
/-- The ratio column: the node softmax of the edge weights over the in-degree clipped below at one. -/
theorem entry_ratio (c : Dev nD) : W3 m ρ c (Proc.devRef .tc main_v27)
    = Host.divf (val_main_v29 (F := F) (weights m c)) (val_main_v32 (F := F) (dests m c)) := by
  dsimp only [W3, W2, W1, W0, hostOps0, hostOps0_1, hostOps0_2]
  after_results_simp
  rfl

/-! ## At the item region's exit -/

theorem exit_sources (c : Dev nD) : W4 m ρ c (Proc.devRef .tc main_arg3) = sources m c :=
  (W4_of_ne m ρ c main_arg3 (by decide)).trans (entry_sources m ρ c)
theorem exit_dests (c : Dev nD) : W4 m ρ c (Proc.devRef .tc main_arg4) = dests m c :=
  (W4_of_ne m ρ c main_arg4 (by decide)).trans (entry_dests m ρ c)
theorem exit_ones (c : Dev nD) : W4 m ρ c (Proc.devRef .tc main_v0) = val_main_v0 (F := F) :=
  (W4_of_ne m ρ c main_v0 (by decide)).trans (entry_ones m ρ c)

/-- The item region's output array: `itemStage` of the aggregated features, the pretrained features and the ratio
    column. -/
theorem exit_items (c : Dev nD) : W4 m ρ c (Proc.devRef .tc main_v28)
    = itemStage (val_main_v10 (F := F) (users m c) (sources m c) (dests m c)) (pretrained m c)
        (Host.divf (val_main_v29 (F := F) (weights m c)) (val_main_v32 (F := F) (dests m c))) := by
  refine (W4_arr m ρ c 3).trans ?_
  rw [item_final (V3 m ρ) c]
  have e0 : V3 m ρ c main_v10 = _ := entry_aggregated m ρ c
  have e1 : V3 m ρ c main_arg1 = _ := entry_pretrained m ρ c
  have e2 : V3 m ρ c main_v27 = _ := entry_ratio m ρ c
  rw [e0, e1, e2]

/-! ## At the user region's entry -/

set_option maxHeartbeats 4000000 in
/-- The back-aggregated features per user: the segment sum over sources of the item region's output gathered at the
    destinations. -/
theorem entry_back (c : Dev nD) : W7 m ρ c (Proc.devRef .tc main_v38)
    = Host.scatterAdd Cert.ReferenceIdeal.scatter_S100000x64_S2000000x1_S2000000x64_1_0_0_1 (val_main_v42 (F := F))
        (val_main_v43 (F := F) (sources m c))
        (Host.gather Cert.ReferenceIdeal.gather_S50000x64_S2000000x1_S2000000x64_1_0_n_n_0_1_164
          (W4 m ρ c (Proc.devRef .tc main_v28)) (val_main_v40 (F := F) (dests m c))) := by
  dsimp only [W7, W6, W5, hostOps1, hostOps1_1, hostOps1_2]
  after_results_simp
  rw [exit_sources, exit_dests]
  rfl

set_option maxHeartbeats 4000000 in
/-- The reciprocal degree column: the out-degree clipped below at one, to the power minus one. -/
theorem entry_recip (c : Dev nD) : W7 m ρ c (Proc.devRef .tc main_v45) = val_main_v51 (F := F) (sources m c) := by
  dsimp only [W7, W6, W5, hostOps1, hostOps1_1, hostOps1_2]
  after_results_simp
  rw [exit_sources, exit_ones]
  rfl

/-! ## When @main returns -/

/-- The result buffer: `userStage` of the back-aggregated features (over the item stage) and the reciprocal degrees. -/
theorem result_value (c : Dev nD) : W8 m ρ c (Proc.devRef .tc main_v46)
    = userStage
        (Host.scatterAdd Cert.ReferenceIdeal.scatter_S100000x64_S2000000x1_S2000000x64_1_0_0_1 (val_main_v42 (F := F))
          (val_main_v43 (F := F) (sources m c))
          (Host.gather Cert.ReferenceIdeal.gather_S50000x64_S2000000x1_S2000000x64_1_0_n_n_0_1_164
            (itemStage (val_main_v10 (F := F) (users m c) (sources m c) (dests m c)) (pretrained m c)
              (Host.divf (val_main_v29 (F := F) (weights m c)) (val_main_v32 (F := F) (dests m c))))
            (val_main_v40 (F := F) (dests m c))))
        (val_main_v51 (F := F) (sources m c)) := by
  refine (W8_arr m ρ c 2).trans ?_
  rw [user_final (V7 m ρ) c]
  have e0 : V7 m ρ c main_v38 = _ := entry_back m ρ c
  have e1 : V7 m ρ c main_v45 = _ := entry_recip m ρ c
  rw [e0, e1, exit_items]

end Cert.KernelIdeal.Whole

end
-- ==== Proof.ItemLaw.lean ====
/-
  The one law that joins the two programs, on the extended reals.

  Per item row `d` and feature `j` the kernel scales the blended feature `a = r + ½·tanh p` by the
  ready-made ratio `s / g` (softmax weight over clipped in-degree), while the reference first multiplies
  by the softmax weight and then divides by the clipped in-degree: `a · (s / g)` against `(s · a) / g`.
  Off a zero divisor the quotient is the product with the inverse, so the two sides differ only by the
  order and grouping of a product of three factors; commutativity and associativity hold on all of the
  extended reals, infinities included, so no finiteness of `a` or `s` is needed. The divisor is never
  zero because it is a maximum with the word of `1.0`: whatever the in-degree count is, `1 ≤ max 1 x`.
-/
import Idealize.ShloMosaic.PureOps.Ideal
import Idealize.ShloMosaic.PureOps.Ideal.Laws

noncomputable section

namespace Cert.ItemLaw

open Idealize.ShloMosaic

/-- The single-precision word `0x3F800000` denotes the number one. -/
theorem one_word : Ideal.ofBits .f32 0x3F800000#32 = 1 := by
  simp [Ideal.ofBits, Ideal.ieee, -EReal.coe_mul]; norm_num

/-- A degree clipped below at one is not zero, whatever the count is: `0 < 1 ≤ max 1 x`. -/
theorem clipped_ne_zero (x : EReal) : max (Ideal.ofBits .f32 0x3F800000#32) x ≠ 0 := by
  rw [one_word]
  have h : (0 : EReal) < max 1 x := lt_of_lt_of_le zero_lt_one (le_max_left _ _)
  exact h.ne'

/-- Scaling by a ready-made ratio is dividing the scaled value: for a divisor `g ≠ 0`,
    `a · (s / g) = (s · a) / g` on the extended reals (both are the product `a · s · g⁻¹`). -/
theorem mul_div_eq_div_mul (a s g : EReal) (hg : g ≠ 0) :
    a * Ideal.div s g = Ideal.div (s * a) g := by
  rw [Ideal.div, Ideal.div, if_neg hg, if_neg hg, mul_comm s a, mul_assoc]

/-- The kernel body and the host spell the constant one half by the same single-precision word. -/
theorem half_word :
    (Scalar.ofBits (F := Ideal) .f32 0x3F000000#32) = (FloatOps.ofBits (F := Ideal) .f32 0x3F000000#32) := rfl

/-- The law in the two programs' own operations, at one entry: with `r` the aggregated feature, `p` the pretrained
    feature, `s` the softmax weight and `g ≠ 0` the clipped degree, the kernel's `(r + ½·tanh p) · (s / g)` is the
    reference's `(s · (r + ½·tanh p)) / g`. The word of one half is the same on both sides and is never evaluated. -/
theorem blend_scale (r p s g : Ideal .f32) (hg : g ≠ 0) :
    FloatOps.mulf (FloatOps.addf r (FloatOps.mulf (Scalar.ofBits .f32 0x3F000000#32) (FloatOps.tanh p)))
        (FloatOps.hostDivf s g)
      = FloatOps.hostDivf (FloatOps.mulf s (FloatOps.addf r
          (FloatOps.mulf (FloatOps.ofBits .f32 0x3F000000#32) (FloatOps.hostUnary .tanh p)))) g := by
  rw [half_word]
  generalize FloatOps.ofBits (F := Ideal) .f32 0x3F000000#32 = h
  exact mul_div_eq_div_mul (r + h * Ideal.tanh p) s g hg

end Cert.ItemLaw

end
-- ==== Proof.Bridge.lean ====
/-
  The kernel program's result term is the reference's, at the ideal values.

  Both programs aggregate, per item, the user rows over the edges into that item; both blend in half the hyperbolic
  tangent of the pretrained feature; both weight by the node softmax of the edge weights and divide by the in-degree
  clipped below at one; both then aggregate the item rows back over the edges per user and multiply by the reciprocal
  of the out-degree clipped below at one. They differ in ONE place: the kernel multiplies the blended feature `a` by
  the ready-made ratio `s / g`, the reference computes `(s · a) / g`. With `g = max 1 (count) ≠ 0` both are the product
  `a · s · g⁻¹` on the extended reals (`ItemLaw`), for every value of `a` and `s`, finite or not. Everything after the item
  stage is the same operations on both sides, read once at an index for the last product (the kernel reads the
  reciprocal-degree column at the entry's row, the reference stretches the column along the features first).
-/
import proofs.«137836_j30983894073822_1_alg».proof.Proof.Gen.ReferenceIdeal.Read
import proofs.«137836_j30983894073822_1_alg».proof.Proof.ItemLaw
import proofs.«137836_j30983894073822_1_alg».proof.Proof.ItemBlocks
import proofs.«137836_j30983894073822_1_alg».proof.Proof.UserBlocks
import Idealize.ShloMosaic.Lib.ValueIdx
import Idealize.ShloMosaic.PureOps.Ideal

set_option maxRecDepth 16384

noncomputable section

namespace Cert.Bridge

open Cert.ReferenceIdeal Cert.ReferenceIdeal.Read
open Idealize.ShloMosaic Idealize.ShloMosaic.TcCoe Idealize.ShloMosaic.ValueIdx
open Cert.KernelIdeal.Whole (itemStage userStage)

variable (x0 : (⟨S100000x64, .f32⟩ : BufTy).Contents (Elt Ideal)) (x1 : (⟨S50000x64, .f32⟩ : BufTy).Contents (Elt Ideal))
  (x2 : (⟨S50000x1, .f32⟩ : BufTy).Contents (Elt Ideal)) (x3 x4 : (⟨S2000000, .i32⟩ : BufTy).Contents (Elt Ideal))

/-- The in-degree column clipped below at one is nowhere zero: each entry is a maximum with the word of one. -/
theorem clipped_degree_ne_zero (k : S50000x1.Idx) : val_main_v32 (F := Ideal) x4 k ≠ 0 := by
  rw [val_main_v32_apply, val_main_v14_apply, val_main_call0_v1_apply]
  exact Cert.ItemLaw.clipped_ne_zero _

/-- A host quotient of two columns read at an index is the quotient of the entries. -/
theorem ratio_apply (a b : FVec Ideal S50000x1 .f32) (k : S50000x1.Idx) :
    Host.divf a b k = FloatOps.hostDivf (a k) (b k) := rfl

/-- THE ITEM STAGE: the kernel's `(r + ½·tanh p) · (s / g)` is the reference's `(s · (r + ½·tanh p)) / g`, entry by
    entry, the softmax weight `s` and the clipped in-degree `g` read at the entry's row. -/
theorem item_eq :
    itemStage (F := Ideal) (val_main_v10 x0 x3 x4) x1 (Host.divf (val_main_v29 x2) (val_main_v32 x4))
      = val_main_v34 x0 x1 x2 x3 x4 := by
  funext i
  have h30 : idx_main_v30 i = ix2 (i 0) (0 : Fin 1) := funext fun a => match a with | ⟨0, _⟩ => rfl | ⟨1, _⟩ => rfl
  have h33 : idx_main_v33 i = ix2 (i 0) (0 : Fin 1) := funext fun a => match a with | ⟨0, _⟩ => rfl | ⟨1, _⟩ => rfl
  have hg := clipped_degree_ne_zero x4 (ix2 (i 0) (0 : Fin 1))
  rw [Cert.KernelIdeal.Whole.itemStage_apply, ratio_apply,
    val_main_v34_apply, val_main_v31_apply, val_main_v30_apply, val_main_v33_apply, val_main_v18_apply,
    val_main_v17_apply, val_main_v16_apply, val_main_cst_4_apply, val_main_v15_apply, h30, h33]
  exact Cert.ItemLaw.blend_scale _ _ _ _ hg

/-- The back-aggregation stage of the reference, spelled out: the segment sum over sources of the item stage gathered
    at the destinations. -/
theorem back_stage :
    val_main_v44 x0 x1 x2 x3 x4
      = Host.scatterAdd scatter_S100000x64_S2000000x1_S2000000x64_1_0_0_1 (val_main_v42 (F := Ideal)) (val_main_v43 x3)
          (Host.gather gather_S50000x64_S2000000x1_S2000000x64_1_0_n_n_0_1_164 (val_main_v34 x0 x1 x2 x3 x4)
            (val_main_v40 x4)) := rfl

/-- THE RESULT: the kernel program's result term — the user stage over the back-aggregation of the item stage — is
    the reference's last stage. -/
theorem result_eq :
    userStage (F := Ideal)
        (Host.scatterAdd scatter_S100000x64_S2000000x1_S2000000x64_1_0_0_1 (val_main_v42 (F := Ideal)) (val_main_v43 x3)
          (Host.gather gather_S50000x64_S2000000x1_S2000000x64_1_0_n_n_0_1_164
            (itemStage (val_main_v10 x0 x3 x4) x1 (Host.divf (val_main_v29 x2) (val_main_v32 x4)))
            (val_main_v40 x4)))
        (val_main_v51 x3)
      = val_main_v53 x0 x1 x2 x3 x4 := by
  rw [item_eq, ← back_stage]
  funext i
  have h52 : idx_main_v52 i = ix2 (i 0) (0 : Fin 1) := funext fun a => match a with | ⟨0, _⟩ => rfl | ⟨1, _⟩ => rfl
  rw [Cert.KernelIdeal.Whole.userStage_apply, val_main_v53_apply, val_main_v52_apply, h52]
  rfl

end Cert.Bridge

end
-- ==== Proof.lean ====
/-
  A two-pass bipartite graph layer: user features are summed into items along the edges, blended with half the
  hyperbolic tangent of a pretrained item feature, weighted by the node softmax of an edge weight and normalised by
  the in-degree (clipped below at one); the item rows are then summed back into users along the same edges and
  multiplied by the reciprocal out-degree (clipped below at one, to the power minus one).

  The kernel program does the two gathers and four segment sums, the clips, the softmax and the power with host
  operations, exactly as the reference does, and fuses the two dense per-row chains into two kernels over blocks of
  5000 rows: `(r + ½·tanh p) · q` with the ratio column `q = softmax / degree` precomputed on the host, and
  `s · d` with the reciprocal-degree column `d`. The reference computes `(softmax · (r + ½·tanh p)) / degree` instead.

  The proof: each kernel's region leaves ONE whole-array function of the arrays it finds (ItemBlocks, UserBlocks);
  the run of the whole kernel program ends with its result buffer at the last segment boundary's contents
  (KernelRun), which read backwards through the host stretches and the two regions is a term of the five arguments
  in the reference's own stage vocabulary (KernelValue); that term and the reference's differ by the order of a
  product of three extended reals whose divisor, a maximum with one, is never zero (ItemLaw, Bridge). No finiteness
  of the inputs is used, and the integer index arrays are arbitrary: both programs normalise, gather and scatter
  them with the same operations.
-/
import proofs.«137836_j30983894073822_1_alg».proof.Defs
import proofs.«137836_j30983894073822_1_alg».proof.Proof.Gen.Kernel
import proofs.«137836_j30983894073822_1_alg».proof.Proof.Gen.Kernel.Frame
import proofs.«137836_j30983894073822_1_alg».proof.Proof.Gen.KernelIdeal
import proofs.«137836_j30983894073822_1_alg».proof.Proof.Gen.KernelIdeal.Frame
import proofs.«137836_j30983894073822_1_alg».proof.Proof.Gen.ReferenceIdeal
import proofs.«137836_j30983894073822_1_alg».proof.Proof.Gen.ReferenceIdeal.Run
import proofs.«137836_j30983894073822_1_alg».proof.Proof.Gen.ReferenceIdeal.Read
import proofs.«137836_j30983894073822_1_alg».proof.Proof.Gen.Pre_finite_inputs
import proofs.«137836_j30983894073822_1_alg».proof.Proof.KernelRun
import proofs.«137836_j30983894073822_1_alg».proof.Proof.KernelValue
import proofs.«137836_j30983894073822_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the reference's last stage of the five arguments: the kernel program's
    result buffer read back through its regions and host stretches and joined to the reference's term by the item
    stage's law; the reference's by its run. -/
theorem algebraic : Cert.algebraic_KernelIdeal_ReferenceIdeal := by
  intro m ρ m' ρ' _ hagree
  refine ⟨fun c => Cert.ReferenceIdeal.Read.val_main_v53 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans ((Cert.KernelIdeal.Whole.result_value m ρ c).trans (Cert.Bridge.result_eq _ _ _ _ _)), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
